-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 120
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x64, .f32⟩
  | .hbm, ⟨111, _⟩ => ⟨S1700000x1, .f32⟩
  | .hbm, ⟨112, _⟩ => ⟨S1700000x64, .f32⟩
  | .hbm, ⟨113, _⟩ => ⟨S1700000x64, .f32⟩
  | .hbm, ⟨114, _⟩ => ⟨S_, .f32⟩
  | .hbm, ⟨115, _⟩ => ⟨S100000x64, .f32⟩
  | .hbm, ⟨116, _⟩ => ⟨S1700000x1, .i32⟩
  | .hbm, ⟨117, _⟩ => ⟨S100000x64, .f32⟩
  | .hbm, ⟨118, _⟩ => ⟨S1x64, .f32⟩
  | .hbm, ⟨119, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S100000x1, .f32⟩
  | 10 => ⟨S100000x64, .f32⟩
  | 11 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run, with EVERY buffer named.

  @main of the kernel's program is four pipelined regions (x·W1 in row blocks; bias + relu; h·W2 in row blocks; bias +
  log-softmax) among stretches of host operations (the graph aggregation: degree, normalisation, gather, scatter-add).
  The generated frame follows the buffer contents through the eleven segments as a fold `W0 … W11` from the launch
  memory and concludes that the ARGUMENTS end as launched. The same launch, chained through the same segments, says
  more: at the end every unscoped buffer `b` of core `c` holds `W11 m ρ c b` — in particular the result buffer. This
  module states that stronger post; the value of `W11` at the result buffer is read off in the modules that follow.
-/
import proofs.«165954_j42657615184421_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, and in the final state every unscoped buffer of
    every core holds the last boundary's contents: the launch over the segments, the last thread state read against the
    final state, and nothing forgotten. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The result buffer `main_v87` (region 3's output array) at the end of the run. -/
theorem result_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_v87) = W11 m ρ c (Proc.devRef .tc main_v87) :=
  h c _ (mem_uc main_v87 (by decide))

/-- An argument buffer at the end of the run is as launched (the generated walk back through the fold). -/
theorem arg0_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg0) = m ((c.tc : Thread nD τ).loc main_arg0) :=
  (h c _ (mem_uc main_arg0 (by decide))).trans (W11_main_arg0 m ρ c)
theorem arg1_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg1) = m ((c.tc : Thread nD τ).loc main_arg1) :=
  (h c _ (mem_uc main_arg1 (by decide))).trans (W11_main_arg1 m ρ c)
theorem arg2_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg2) = m ((c.tc : Thread nD τ).loc main_arg2) :=
  (h c _ (mem_uc main_arg2 (by decide))).trans (W11_main_arg2 m ρ c)
theorem arg3_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg3) = m ((c.tc : Thread nD τ).loc main_arg3) :=
  (h c _ (mem_uc main_arg3 (by decide))).trans (W11_main_arg3 m ρ c)
theorem arg4_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg4) = m ((c.tc : Thread nD τ).loc main_arg4) :=
  (h c _ (mem_uc main_arg4 (by decide))).trans (W11_main_arg4 m ρ c)
theorem arg5_mem (r : PUnit × MemSt nD τ sig (Elt F))
    (h : ∀ c : Dev nD, ∀ b ∈ Pipeline.ucRefs τ sig, r.2.mem (((c : Thread nD τ)).1, b) = W11 m ρ c b) (c : Dev nD) :
    r.2.mem ((c.tc : Thread nD τ).loc main_arg5) = m ((c.tc : Thread nD τ).loc main_arg5) :=
  (h c _ (mem_uc main_arg5 (by decide))).trans (W11_main_arg5 m ρ c)

end Cert.KernelIdeal.Run

end
-- ==== Proof.Spec.lean ====
/-
  What the two programs compute, as functions on arrays of extended reals.

  A two-layer graph convolution. With `A` the aggregation "add self-loops, scale each edge by the inverse square roots of its
  endpoints' degrees, gather rows by source and scatter-add them by destination" (a host computation both programs run, the same
  operations in the same order), the result is

      logSoftmax (A (relu (A (x · W1) + b1) · W2) + b2)      (rows: nodes; the softmax over each row).

  Here are the three dense pieces, index by index: a matrix product as the sum over the contracted axis; "add the bias row and
  clamp at zero"; "add the bias row and take the log-softmax of each row" — the row's maximum subtracted first, as both
  programs do. The bias enters either as a vector (the reference's) or as a one-row matrix (what the kernel stages); the two
  forms are related at the end of this module. No algebraic law is needed between the two programs: they compute these very
  expressions, the kernel block of rows by block of rows.
-/
import Idealize.ShloMosaic.PureOps.Ideal
import Idealize.ShloMosaic.PureOps.Ideal.Laws
import Idealize.ShloMosaic.Lib.ValueIdx
import Idealize.ShloMosaic.Lib.ValueLayout

noncomputable section

namespace Cert.Spec

open Idealize.ShloMosaic Idealize.ShloMosaic.ValueIdx

/-- The index (row of `i`, `k`). -/
abbrev rowAt {n0 n1 : Nat} (nk : Nat) (i : (⟨2, ![n0, n1]⟩ : Shape).Idx) (k : Fin nk) : (⟨2, ![n0, nk]⟩ : Shape).Idx :=
  ix2 (⟨(i 0).val, idx2_lt0 i⟩ : Fin n0) k
/-- The index (`k`, column of `i`). -/
abbrev colAt {n0 n1 : Nat} (nk : Nat) (i : (⟨2, ![n0, n1]⟩ : Shape).Idx) (k : Fin nk) : (⟨2, ![nk, n1]⟩ : Shape).Idx :=
  ix2 k (⟨(i 1).val, idx2_lt1 i⟩ : Fin n1)
/-- The column of `i`, as an index of a vector. -/
abbrev colOf {n0 n1 : Nat} (i : (⟨2, ![n0, n1]⟩ : Shape).Idx) : (⟨1, ![n1]⟩ : Shape).Idx := ix1 (⟨(i 1).val, idx2_lt1 i⟩ : Fin n1)
/-- The column of `i`, in a one-row matrix. -/
abbrev colOf2 {n0 n1 : Nat} (i : (⟨2, ![n0, n1]⟩ : Shape).Idx) : (⟨2, ![1, n1]⟩ : Shape).Idx := ix2 (0 : Fin 1) (⟨(i 1).val, idx2_lt1 i⟩ : Fin n1)

/-- The matrix product: entry (r, c) is the sum over k of x[r, k] · w[k, c]. -/
def matMul (n0 nk n1 : Nat) (x : (⟨2, ![n0, nk]⟩ : Shape).Idx → EReal) (w : (⟨2, ![nk, n1]⟩ : Shape).Idx → EReal) :
    (⟨2, ![n0, n1]⟩ : Shape).Idx → EReal :=
  fun i => ∑ k : Fin nk, x (rowAt nk i k) * w (colAt nk i k)

/-- Add the bias (a vector over the columns) to every row, then clamp at zero. -/
def biasRelu (n0 n1 : Nat) (a : (⟨2, ![n0, n1]⟩ : Shape).Idx → EReal) (b : (⟨1, ![n1]⟩ : Shape).Idx → EReal) :
    (⟨2, ![n0, n1]⟩ : Shape).Idx → EReal :=
  fun i => max (a i + b (colOf i)) (Ideal.ofBits .f32 0x00000000#32)
/-- The same with the bias as a one-row matrix. -/
def biasRelu2 (n0 n1 : Nat) (a : (⟨2, ![n0, n1]⟩ : Shape).Idx → EReal) (b : (⟨2, ![1, n1]⟩ : Shape).Idx → EReal) :
    (⟨2, ![n0, n1]⟩ : Shape).Idx → EReal :=
  fun i => max (a i + b (colOf2 i)) (Ideal.ofBits .f32 0x00000000#32)

/-- The log-softmax of one row `z`, at its entry `j`: with `M` the row's maximum (folded from the pattern of -∞),
    (z j - M) - log (Σ_k exp (z k - M)). -/
def logSoftmaxRow (n1 : Nat) (z : Fin n1 → EReal) (j : Fin n1) : EReal :=
  (z j - (Finset.univ : Finset (Fin n1)).fold max (Ideal.ofBits .f32 0xFF800000#32) z)
    - Ideal.log (∑ k : Fin n1, Ideal.exp (z k - (Finset.univ : Finset (Fin n1)).fold max (Ideal.ofBits .f32 0xFF800000#32) z))

/-- Add the bias (a vector over the columns) to every row, then the log-softmax of each row. -/
def biasLogSoftmax (n0 n1 : Nat) (a : (⟨2, ![n0, n1]⟩ : Shape).Idx → EReal) (b : (⟨1, ![n1]⟩ : Shape).Idx → EReal) :
    (⟨2, ![n0, n1]⟩ : Shape).Idx → EReal :=
  fun i => logSoftmaxRow n1 (fun k => a (rowAt n1 i k) + b (ix1 k)) (⟨(i 1).val, idx2_lt1 i⟩ : Fin n1)
/-- The same with the bias as a one-row matrix. -/
def biasLogSoftmax2 (n0 n1 : Nat) (a : (⟨2, ![n0, n1]⟩ : Shape).Idx → EReal) (b : (⟨2, ![1, n1]⟩ : Shape).Idx → EReal) :
    (⟨2, ![n0, n1]⟩ : Shape).Idx → EReal :=
  fun i => logSoftmaxRow n1 (fun k => a (rowAt n1 i k) + b (ix2 (0 : Fin 1) k)) (⟨(i 1).val, idx2_lt1 i⟩ : Fin n1)

/-- A vector recast as a one-row matrix holds, in its one row, the vector. -/
theorem rowCast_apply {n1 : Nat} (b : (⟨1, ![n1]⟩ : Shape).Idx → EReal) (h : (⟨1, ![n1]⟩ : Shape).ShapeCasts ⟨2, ![1, n1]⟩) (k : Fin n1) :
    shapeCast (⟨2, ![1, n1]⟩ : Shape) b h (ix2 (0 : Fin 1) k) = b (ix1 k) :=
  shapeCast_a_1a_apply b h (0 : Fin 1) k

/-- With the bias recast as a one-row matrix the two forms of "bias, then clamp" agree. -/
theorem biasRelu2_rowCast (n0 n1 : Nat) (a : (⟨2, ![n0, n1]⟩ : Shape).Idx → EReal) (b : (⟨1, ![n1]⟩ : Shape).Idx → EReal)
    (h : (⟨1, ![n1]⟩ : Shape).ShapeCasts ⟨2, ![1, n1]⟩) :
    biasRelu2 n0 n1 a (shapeCast (⟨2, ![1, n1]⟩ : Shape) b h) = biasRelu n0 n1 a b := by
  funext i
  unfold biasRelu2 biasRelu
  rw [show shapeCast (⟨2, ![1, n1]⟩ : Shape) b h (colOf2 i) = b (colOf i) from rowCast_apply b h _]

/-- With the bias recast as a one-row matrix the two forms of "bias, then log-softmax" agree. -/
theorem biasLogSoftmax2_rowCast (n0 n1 : Nat) (a : (⟨2, ![n0, n1]⟩ : Shape).Idx → EReal) (b : (⟨1, ![n1]⟩ : Shape).Idx → EReal)
    (h : (⟨1, ![n1]⟩ : Shape).ShapeCasts ⟨2, ![1, n1]⟩) :
    biasLogSoftmax2 n0 n1 a (shapeCast (⟨2, ![1, n1]⟩ : Shape) b h) = biasLogSoftmax n0 n1 a b := by
  funext i
  unfold biasLogSoftmax2 biasLogSoftmax
  refine congrArg (fun z => logSoftmaxRow n1 z _) (funext fun k => ?_)
  rw [rowCast_apply b h k]

/-- The maximum of a fold of `max` with the value the fold started from is the fold. -/
theorem max_init_fold_max {ι : Type} (s : Finset ι) (a : EReal) (z : ι → EReal) : max a (s.fold max a z) = s.fold max a z :=
  max_eq_right (Finset.le_fold_max a |>.mpr (Or.inl le_rfl))

end Cert.Spec

end
-- ==== Proof.KRegion0.lean ====
/-
  Region 0 of the kernel's @main: a matrix product, one block of 5000 rows at a time.

  At grid point t (of 20) the pipeline stages rows 5000·t … 5000·t + 4999 of the left operand and the whole right operand;
  the body multiplies the two blocks (the operands rounded to bf16 on the way in, which at the extended reals is the
  identity) into a zero accumulator and the block is written back to rows 5000·t … of the output. Entry (r, c) of the
  block product is Σ_k x[5000·t + r, k] · w[k, c]: the entry (5000·t + r, c) of the whole product. The twenty blocks tile
  the output array, so after the region it holds the whole product of the two arrays as the region found them.
-/
import proofs.«165954_j42657615184421_1_alg».proof.Proof.Gen.KernelIdeal.Frame
import proofs.«165954_j42657615184421_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- The product's dimension record: the left operand's axis 1 contracted with the right operand's axis 0. -/
abbrev D : DotDims S5000x128 S128x128 S5000x128 := dot_S5000x128_S128x128_S5000x128_1_0_0_1_n_n

/-! ## The operand indices of the block product at an output index and a contraction index -/

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_k (i : S5000x128.Idx) (q : D.contr.Idx) : (D.lhsIdx i q 1).val = (q ⟨0, by decide⟩).val :=
  D.lhsIdx_val_of_single rfl i q
theorem rhs_k (i : S5000x128.Idx) (q : D.contr.Idx) : (D.rhsIdx i q 0).val = (q ⟨0, by decide⟩).val :=
  D.rhsIdx_val_of_single rfl i q
theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The body's payload at an entry of the block: the sum over k of (row of the left block) · (column of the right block). -/
theorem pay_apply (x0 : FVec Ideal S5000x128 .f32) (x1 : FVec Ideal S128x128 .f32) (j : S5000x128.Idx) :
    k0_pay1 x0 x1 j = ∑ k : Fin 128, x0 (rowAt 128 j k) * x1 (colAt 128 j k) := by
  show FloatOps.matmul D none (truncf .bf16 x0 bitsLt_bf16_f32) (truncf .bf16 x1 bitsLt_bf16_f32) (constant S5000x128 .f32 0x00000000#32) j = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = rowAt 128 j k := funext fun a => Fin.ext (by
    match a with
    | ⟨0, _⟩ => exact lhs_row _ _
    | ⟨1, _⟩ => exact (lhs_k _ _).trans hk)
  have er : D.rhsIdx j ((contrEquiv1 D 128 rfl rfl).symm k) = colAt 128 j k := funext fun a => Fin.ext (by
    match a with
    | ⟨0, _⟩ => exact (rhs_k _ _).trans hk
    | ⟨1, _⟩ => exact rhs_col _ _)
  show x0 (D.lhsIdx j ((contrEquiv1 D 128 rfl rfl).symm k)) * x1 (D.rhsIdx j ((contrEquiv1 D 128 rfl rfl).symm k)) = _
  rw [el, er]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks of the left operand and of the output move together, block t at
    point t; the right operand's one block stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem index_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point `t` writes back is block `t` of the whole product of the two arrays as the region finds them. -/
theorem flushed_eq (c : Dev nD) (t : Fin cfg0.N) :
    (dat0 V c).flushed 2 t
      = ((cfg0.win 2).blk t).view.read (Elt Ideal) (matMul 100000 128 128 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext j
  show k0_pay1 (iblk0 V c 0 t) (iblk0 V c 1 t) j
    = matMul 100000 128 128 (V c main_arg0) (V c main_arg2) (((cfg0.win 2).blk t).view.emb j)
  refine (pay_apply (iblk0 V c 0 t) (iblk0 V c 1 t) j).trans ?_
  unfold matMul
  refine Finset.sum_congr rfl fun k _ => ?_
  have h0 : ((cfg0.win 0).blk t).view.emb (rowAt 128 j k) = rowAt 128 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt 128 j k) = colAt 128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hx : iblk0 V c 0 t (rowAt 128 j k) = V c main_arg0 (rowAt 128 (((cfg0.win 2).blk t).view.emb j) k) := by
    show V c main_arg0 (((cfg0.win 0).blk t).view.emb (rowAt 128 j k)) = _
    rw [h0]
  have hw : iblk0 V c 1 t (colAt 128 j k) = V c main_arg2 (colAt 128 (((cfg0.win 2).blk t).view.emb j) k) := by
    show V c main_arg2 (((cfg0.win 1).blk t).view.emb (colAt 128 j k)) = _
    rw [h1]
  rw [hx, hw]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The blocks tile the output array: row r is in block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := index_onto ⟨(i 0).val / 5000, by omega⟩
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [q0]; show (i 0).val / 5000 * 5000 ≤ (i 0).val ∧ (i 0).val < (i 0).val / 5000 * 5000 + 5000; omega
  | ⟨1, _⟩ => show win0_2.index t (1 : Fin 2) * 128 ≤ (i 1).val ∧ (i 1).val < win0_2.index t (1 : Fin 2) * 128 + 128; omega

/-- The output array after the region: the whole product of the two operand arrays as the region found them. -/
theorem final (c : Dev nD) :
    (dat0 V c).arrAt 2 cfg0.N = matMul 100000 128 128 (V c main_arg0) (V c main_arg2) :=
  (dat0 V c).arrAt_eq_of_cover 2 _ (fun t _ => flushed_eq V c t) cover

end Cert.KernelIdeal.Region0

end
-- ==== Proof.KRegion1.lean ====
/-
  Region 1 of the kernel's @main: the bias added to every row and the result clamped at zero, one block of 5000 rows at a time.

  At grid point t the pipeline stages rows 5000·t … 5000·t + 4999 of the aggregated features and the one-row bias; the body
  adds the bias row to each row of the block and takes the maximum with zero, entry by entry; the block goes back to the same
  rows of the output. Entry (r, c) of the block depends on the input's entry (5000·t + r, c) and the bias's entry c only, so
  the twenty blocks together are "bias, then clamp" of the whole array.
-/
import proofs.«165954_j42657615184421_1_alg».proof.Proof.Gen.KernelIdeal.Frame
import proofs.«165954_j42657615184421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- The body's payload at an entry of the block: the entry plus the bias of its column, clamped at the zero pattern's value. -/
theorem pay_apply (x0 : FVec Ideal S5000x128 .f32) (x1 : FVec Ideal S1x128 .f32) (j : S5000x128.Idx) :
    k1_pay1 x0 x1 j = max (x0 j + x1 (colOf2 j)) (Ideal.ofBits .f32 0x00000000#32) := by
  obtain ⟨r, cc, rfl⟩ : ∃ (r : Fin 5000) (cc : Fin 128), j = ix2 r cc := ⟨j 0, j 1, eq_ix2 j⟩
  show max (shapeCast S5000x128 x0 shapeCasts_S5000x128_S5000x128 (ix2 r cc)
      + broadcastTo S5000x128 (shapeCast S1x128 x1 shapeCasts_S1x128_S1x128) broadcasts_S1x128_S5000x128 (ix2 r cc))
    (Ideal.ofBits .f32 0x00000000#32) = _
  rw [shapeCast_self, shapeCast_self, broadcastTo_1b_ab_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks of the input and of the output move together, block t at point t;
    the bias row's one block stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem index_onto : ∀ q : Fin 20, ∃ t : Fin cfg1.N, win1_2.index t (0 : Fin 2) = q.val ∧ win1_2.index t (1 : Fin 2) = 0 :=
  (by decide +kernel : ∀ q : Fin 20, ∃ t : Fin grid1.N, win1_2.index t (0 : Fin 2) = q.val ∧ win1_2.index t (1 : Fin 2) = 0)

/-- What point `t` writes back is block `t` of "bias, then clamp" of the two arrays as the region finds them. -/
theorem flushed_eq (c : Dev nD) (t : Fin cfg1.N) :
    (dat1 V c).flushed 2 t
      = ((cfg1.win 2).blk t).view.read (Elt Ideal) (biasRelu2 100000 128 (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts t
  funext j
  show k1_pay1 (iblk1 V c 0 t) (iblk1 V c 1 t) j
    = biasRelu2 100000 128 (V c main_v43) (V c main_v44) (((cfg1.win 2).blk t).view.emb j)
  refine (pay_apply (iblk1 V c 0 t) (iblk1 V c 1 t) j).trans ?_
  unfold biasRelu2
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (colOf2 j) = colOf2 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have hx : iblk1 V c 0 t j = V c main_v43 (((cfg1.win 2).blk t).view.emb j) := by
    show V c main_v43 (((cfg1.win 0).blk t).view.emb j) = _
    rw [h0]
  have hb : iblk1 V c 1 t (colOf2 j) = V c main_v44 (colOf2 (((cfg1.win 2).blk t).view.emb j)) := by
    show V c main_v44 (((cfg1.win 1).blk t).view.emb (colOf2 j)) = _
    rw [h1]
  rw [hx, hb]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The blocks tile the output array: row r is in block r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, q0, q1⟩ := index_onto ⟨(i 0).val / 5000, by omega⟩
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [q0]; show (i 0).val / 5000 * 5000 ≤ (i 0).val ∧ (i 0).val < (i 0).val / 5000 * 5000 + 5000; omega
  | ⟨1, _⟩ => show win1_2.index t (1 : Fin 2) * 128 ≤ (i 1).val ∧ (i 1).val < win1_2.index t (1 : Fin 2) * 128 + 128; omega

/-- The output array after the region: "bias, then clamp" of the two input arrays as the region found them. -/
theorem final (c : Dev nD) :
    (dat1 V c).arrAt 2 cfg1.N = biasRelu2 100000 128 (V c main_v43) (V c main_v44) :=
  (dat1 V c).arrAt_eq_of_cover 2 _ (fun t _ => flushed_eq V c t) cover

end Cert.KernelIdeal.Region1

end
-- ==== Proof.KRegion2.lean ====
/-
  Region 2 of the kernel's @main: a matrix product, one block of 5000 rows at a time.

  At grid point t (of 20) the pipeline stages rows 5000·t … 5000·t + 4999 of the left operand and the whole right operand;
  the body multiplies the two blocks (the operands rounded to bf16 on the way in, which at the extended reals is the
  identity) into a zero accumulator and the block is written back to rows 5000·t … of the output. Entry (r, c) of the
  block product is Σ_k x[5000·t + r, k] · w[k, c]: the entry (5000·t + r, c) of the whole product. The twenty blocks tile
  the output array, so after the region it holds the whole product of the two arrays as the region found them.
-/
import proofs.«165954_j42657615184421_1_alg».proof.Proof.Gen.KernelIdeal.Frame
import proofs.«165954_j42657615184421_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- The product's dimension record: the left operand's axis 1 contracted with the right operand's axis 0. -/
abbrev D : DotDims S5000x128 S128x64 S5000x64 := dot_S5000x128_S128x64_S5000x64_1_0_0_1_n_n

/-! ## The operand indices of the block product at an output index and a contraction index -/

theorem lhs_row (i : S5000x64.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_k (i : S5000x64.Idx) (q : D.contr.Idx) : (D.lhsIdx i q 1).val = (q ⟨0, by decide⟩).val :=
  D.lhsIdx_val_of_single rfl i q
theorem rhs_k (i : S5000x64.Idx) (q : D.contr.Idx) : (D.rhsIdx i q 0).val = (q ⟨0, by decide⟩).val :=
  D.rhsIdx_val_of_single rfl i q
theorem rhs_col (i : S5000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- The body's payload at an entry of the block: the sum over k of (row of the left block) · (column of the right block). -/
theorem pay_apply (x0 : FVec Ideal S5000x128 .f32) (x1 : FVec Ideal S128x64 .f32) (j : S5000x64.Idx) :
    k2_pay1 x0 x1 j = ∑ k : Fin 128, x0 (rowAt 128 j k) * x1 (colAt 128 j k) := by
  show FloatOps.matmul D none (truncf .bf16 (shapeCast S5000x128 x0 shapeCasts_S5000x128_S5000x128) bitsLt_bf16_f32) (truncf .bf16 x1 bitsLt_bf16_f32) (constant S5000x64 .f32 0x00000000#32) j = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = rowAt 128 j k := funext fun a => Fin.ext (by
    match a with
    | ⟨0, _⟩ => exact lhs_row _ _
    | ⟨1, _⟩ => exact (lhs_k _ _).trans hk)
  have er : D.rhsIdx j ((contrEquiv1 D 128 rfl rfl).symm k) = colAt 128 j k := funext fun a => Fin.ext (by
    match a with
    | ⟨0, _⟩ => exact (rhs_k _ _).trans hk
    | ⟨1, _⟩ => exact rhs_col _ _)
  show shapeCast S5000x128 x0 shapeCasts_S5000x128_S5000x128 (D.lhsIdx j ((contrEquiv1 D 128 rfl rfl).symm k)) * x1 (D.rhsIdx j ((contrEquiv1 D 128 rfl rfl).symm k)) = _
  rw [el, er, shapeCast_self]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks of the left operand and of the output move together, block t at
    point t; the right operand's one block stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem index_onto : ∀ q : Fin 20, ∃ t : Fin cfg2.N, win2_2.index t (0 : Fin 2) = q.val ∧ win2_2.index t (1 : Fin 2) = 0 :=
  (by decide +kernel : ∀ q : Fin 20, ∃ t : Fin grid2.N, win2_2.index t (0 : Fin 2) = q.val ∧ win2_2.index t (1 : Fin 2) = 0)

/-- What point `t` writes back is block `t` of the whole product of the two arrays as the region finds them. -/
theorem flushed_eq (c : Dev nD) (t : Fin cfg2.N) :
    (dat2 V c).flushed 2 t
      = ((cfg2.win 2).blk t).view.read (Elt Ideal) (matMul 100000 128 64 (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  obtain ⟨e0, e1, e2, e3, e4, e5⟩ := index_facts t
  funext j
  show k2_pay1 (iblk2 V c 0 t) (iblk2 V c 1 t) j
    = matMul 100000 128 64 (V c main_v45) (V c main_arg4) (((cfg2.win 2).blk t).view.emb j)
  refine (pay_apply (iblk2 V c 0 t) (iblk2 V c 1 t) j).trans ?_
  unfold matMul
  refine Finset.sum_congr rfl fun k _ => ?_
  have h0 : ((cfg2.win 0).blk t).view.emb (rowAt 128 j k) = rowAt 128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (colAt 128 j k) = colAt 128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have hx : iblk2 V c 0 t (rowAt 128 j k) = V c main_v45 (rowAt 128 (((cfg2.win 2).blk t).view.emb j) k) := by
    show V c main_v45 (((cfg2.win 0).blk t).view.emb (rowAt 128 j k)) = _
    rw [h0]
  have hw : iblk2 V c 1 t (colAt 128 j k) = V c main_arg4 (colAt 128 (((cfg2.win 2).blk t).view.emb j) k) := by
    show V c main_arg4 (((cfg2.win 1).blk t).view.emb (colAt 128 j k)) = _
    rw [h1]
  rw [hx, hw]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The blocks tile the output array: row r is in block r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := index_onto ⟨(i 0).val / 5000, by omega⟩
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [q0]; show (i 0).val / 5000 * 5000 ≤ (i 0).val ∧ (i 0).val < (i 0).val / 5000 * 5000 + 5000; omega
  | ⟨1, _⟩ => show win2_2.index t (1 : Fin 2) * 64 ≤ (i 1).val ∧ (i 1).val < win2_2.index t (1 : Fin 2) * 64 + 64; omega

/-- The output array after the region: the whole product of the two operand arrays as the region found them. -/
theorem final (c : Dev nD) :
    (dat2 V c).arrAt 2 cfg2.N = matMul 100000 128 64 (V c main_v45) (V c main_arg4) :=
  (dat2 V c).arrAt_eq_of_cover 2 _ (fun t _ => flushed_eq V c t) cover

end Cert.KernelIdeal.Region2

end
-- ==== Proof.LibKeepdims.lean ====
/-
  Rows and columns with a kept unit axis, read at an index (general lemmas, no program imported).

  A row-wise reduction with `keepdims=True` leaves its result as an [a] vector that is then recast to an [a, 1] column and
  broadcast along the rows of an [a, b] array. These are the two layout steps read at an index: the column holds the vector,
  and the broadcast array holds, everywhere in row r, the column's entry r. The host spells the same steps as \`broadcast_in_dim\`
  (a vector to a row or a column, a row down the rows, a column along the rows, a scalar everywhere). Stated for any element type and any extents.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` vector recast as an `[a, 1]` column reads, at `(r, u)`, the vector at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- An `[a, 1]` column broadcast in place to `[a, b]` (the host's `broadcast_in_dim` along the same two axes) reads, at
    `(r, c)`, the column's entry `r`. -/
theorem broadcastInDim_a1_ab_apply {a b : ℕ} (dims : Fin 2 → Fin 2) (hd0 : dims 0 = 0) (hd1 : dims 1 = 1)
    (v : (⟨2, ![a, 1]⟩ : Shape).Idx → α) (h : (⟨2, ![a, 1]⟩ : Shape).BroadcastsInDim ⟨2, ![a, b]⟩ dims)
    (r : Fin a) (c : Fin b) : broadcastInDim ⟨2, ![a, b]⟩ dims h v (ix2 r c) = v (ix2 r (0 : Fin 1)) := by
  refine broadcastInDim_apply dims h v (ix2 r c) (ix2 r (0 : Fin 1)) fun ax => ?_
  match ax with
  | ⟨0, _⟩ =>
    show r.val = if a = 1 then 0 else ((ix2 r c : (⟨2, ![a, b]⟩ : Shape).Idx) (dims 0)).val
    rw [hd0]
    split
    · have := r.isLt; omega
    · rfl
  | ⟨1, _⟩ => rfl

/-- A scalar broadcast to any shape reads, everywhere, the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A `[b]` vector broadcast in place to a `[1, b]` row reads, at `(u, k)`, the vector at `k`. -/
theorem broadcastInDim_b_1b_apply {b : ℕ} (dims : Fin 1 → Fin 2) (hd : dims 0 = 1)
    (x : (⟨1, ![b]⟩ : Shape).Idx → α) (h : (⟨1, ![b]⟩ : Shape).BroadcastsInDim ⟨2, ![1, b]⟩ dims)
    (u : Fin 1) (k : Fin b) : broadcastInDim ⟨2, ![1, b]⟩ dims h x (ix2 u k) = x (ix1 k) := by
  refine broadcastInDim_apply dims h x (ix2 u k) (ix1 k) fun ax => ?_
  match ax with
  | ⟨0, _⟩ =>
    show k.val = if b = 1 then 0 else ((ix2 u k : (⟨2, ![1, b]⟩ : Shape).Idx) (dims 0)).val
    rw [hd]
    split
    · have := k.isLt; omega
    · rfl

/-- A `[1, b]` row broadcast in place to `[a, b]` reads, at `(r, k)`, the row at `k`. -/
theorem broadcastInDim_1b_ab_apply {a b : ℕ} (dims : Fin 2 → Fin 2) (hd0 : dims 0 = 0) (hd1 : dims 1 = 1)
    (v : (⟨2, ![1, b]⟩ : Shape).Idx → α) (h : (⟨2, ![1, b]⟩ : Shape).BroadcastsInDim ⟨2, ![a, b]⟩ dims)
    (r : Fin a) (k : Fin b) : broadcastInDim ⟨2, ![a, b]⟩ dims h v (ix2 r k) = v (ix2 (0 : Fin 1) k) := by
  refine broadcastInDim_apply dims h v (ix2 r k) (ix2 (0 : Fin 1) k) fun ax => ?_
  match ax with
  | ⟨0, _⟩ => rfl
  | ⟨1, _⟩ =>
    show k.val = if b = 1 then 0 else ((ix2 r k : (⟨2, ![a, b]⟩ : Shape).Idx) (dims 1)).val
    rw [hd1]
    split
    · have := k.isLt; omega
    · rfl

/-- An `[a]` vector broadcast in place to an `[a, 1]` column reads, at `(r, u)`, the vector at `r`. -/
theorem broadcastInDim_a_a1_apply {a : ℕ} (dims : Fin 1 → Fin 2) (hd : dims 0 = 0)
    (x : (⟨1, ![a]⟩ : Shape).Idx → α) (h : (⟨1, ![a]⟩ : Shape).BroadcastsInDim ⟨2, ![a, 1]⟩ dims)
    (r : Fin a) (u : Fin 1) : broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else ((ix2 r u : (⟨2, ![a, 1]⟩ : Shape).Idx) (dims 0)).val
    rw [hd]
    split
    · have := r.isLt; omega
    · rfl

end Cert.LibKeepdims

end
-- ==== Proof.KRegion3.lean ====
/-
  Region 3 of the kernel's @main: the bias added to every row and the log-softmax of each row, one block of 5000 rows at a time.

  At grid point t the pipeline stages rows 5000·t … 5000·t + 4999 of the aggregated logits and the one-row bias. The body adds
  the bias row to each row z of the block, takes the row's maximum M (a lane reduction folded from -∞), subtracts it, and
  subtracts the logarithm of the row's sum of exp (z k - M): entry (r, c) of the block is (z c - M) - log Σ_k exp (z k - M),
  which depends on row 5000·t + r of the input and on the bias only. The twenty blocks together are "bias, then log-softmax
  of every row" of the whole array.
-/
import proofs.«165954_j42657615184421_1_alg».proof.Proof.Gen.KernelIdeal.Frame
import proofs.«165954_j42657615184421_1_alg».proof.Proof.Spec
import proofs.«165954_j42657615184421_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

open Cert.LibKeepdims

/-! ## The body's payload, piece by piece -/

/-- The block with the bias row added to every row. -/
def biased (x0 : FVec Ideal S5000x64 .f32) (x1 : FVec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

/-- Each row's maximum, spread along the row. -/
def rowMaxB (z : FVec Ideal S5000x64 .f32) : FVec Ideal S5000x64 .f32 :=
  broadcastTo S5000x64 (shapeCast S5000x1 (multiReduction .maximumf [1] S5000 z 0xFF800000#32 reduces_S5000x64_S5000 (.inl rfl) rfl)
    shapeCasts_S5000_S5000x1) broadcasts_S5000x1_S5000x64

/-- The block with each row's maximum subtracted. -/
def shifted (z : FVec Ideal S5000x64 .f32) : FVec Ideal S5000x64 .f32 := subf z (rowMaxB z)

/-- The logarithm of each row's sum of exponentials, spread along the row. -/
def logSumB (y : FVec Ideal S5000x64 .f32) : FVec Ideal S5000x64 .f32 :=
  broadcastTo S5000x64 (log (shapeCast S5000x1 (multiReduction .add [1] S5000 (exp y) 0x00000000#32 reduces_S5000x64_S5000 (.inl rfl) rfl)
    shapeCasts_S5000_S5000x1)) broadcasts_S5000x1_S5000x64

/-- The payload is these pieces composed. -/
theorem pay_split (x0 : FVec Ideal S5000x64 .f32) (x1 : FVec Ideal S1x64 .f32) :
    k3_pay1 (F := Ideal) x0 x1 = subf (shifted (biased x0 x1)) (logSumB (shifted (biased x0 x1))) := rfl

/-- The lane reduction's inserted index: row r with lane k put back is (r, k). -/
theorem lift_eq (r : Fin 5000) (k : Fin 64) : reduces_S5000x64_S5000.lift (ix1 r) k = ix2 r k := by
  funext a; apply Fin.ext
  match a with
  | ⟨0, _⟩ => rfl
  | ⟨1, _⟩ => rfl

theorem biased_apply (x0 : FVec Ideal S5000x64 .f32) (x1 : FVec Ideal S1x64 .f32) (r : Fin 5000) (k : Fin 64) :
    biased x0 x1 (ix2 r k) = x0 (ix2 r k) + x1 (ix2 (0 : Fin 1) k) := by
  show shapeCast S5000x64 x0 shapeCasts_S5000x64_S5000x64 (ix2 r k)
      + broadcastTo S5000x64 (shapeCast S1x64 x1 shapeCasts_S1x64_S1x64) broadcasts_S1x64_S5000x64 (ix2 r k) = _
  rw [shapeCast_self, shapeCast_self, broadcastTo_1b_ab_apply]

/-- The row maximum at (r, c): the fold of `max` over the row's entries, from the pattern of -∞. -/
theorem rowMaxB_apply (z : FVec Ideal S5000x64 .f32) (r : Fin 5000) (cc : Fin 64) :
    rowMaxB z (ix2 r cc) = (Finset.univ : Finset (Fin 64)).fold max (Ideal.ofBits .f32 0xFF800000#32) (fun k => z (ix2 r k)) := by
  unfold rowMaxB
  rw [broadcastTo_a1_ab_apply, shapeCast_a_a1_apply]
  refine (Ideal.multiReduction_maximumf_single z 0xFF800000#32 reduces_S5000x64_S5000 (.inl rfl) rfl (ix1 r)).trans ?_
  show (Finset.univ : Finset (Fin 64)).fold max (Ideal.ofBits .f32 0xFF800000#32) (z ∘ reduces_S5000x64_S5000.lift (ix1 r)) = _
  refine congrArg (fun f => Finset.fold max (Ideal.ofBits .f32 0xFF800000#32) f (Finset.univ : Finset (Fin 64))) (funext fun k => ?_)
  exact congrArg z (lift_eq r k)

theorem shifted_apply (z : FVec Ideal S5000x64 .f32) (r : Fin 5000) (k : Fin 64) :
    shifted z (ix2 r k) = z (ix2 r k) - (Finset.univ : Finset (Fin 64)).fold max (Ideal.ofBits .f32 0xFF800000#32) (fun k => z (ix2 r k)) := by
  show z (ix2 r k) - rowMaxB z (ix2 r k) = _
  rw [rowMaxB_apply]

/-- The log of the row's sum of exponentials at (r, c). -/
theorem logSumB_apply (y : FVec Ideal S5000x64 .f32) (r : Fin 5000) (cc : Fin 64) :
    logSumB y (ix2 r cc) = Ideal.log (∑ k : Fin 64, Ideal.exp (y (ix2 r k))) := by
  unfold logSumB
  rw [broadcastTo_a1_ab_apply]
  show Ideal.log (shapeCast S5000x1 (multiReduction .add [1] S5000 (exp y) 0x00000000#32 reduces_S5000x64_S5000 (.inl rfl) rfl)
    shapeCasts_S5000_S5000x1 (ix2 r (0 : Fin 1))) = _
  rw [shapeCast_a_a1_apply]
  refine congrArg Ideal.log ?_
  refine (Ideal.multiReduction_add_single (exp y) 0x00000000#32 reduces_S5000x64_S5000 (.inl rfl) rfl (ix1 r)).trans ?_
  show ∑ k : Fin 64, exp y (reduces_S5000x64_S5000.lift (ix1 r) k) = _
  refine Finset.sum_congr rfl fun k _ => ?_
  rw [lift_eq]
  rfl

/-- The body's payload at an entry of the block: the log-softmax of the biased row, at the entry's column. -/
theorem pay_apply (x0 : FVec Ideal S5000x64 .f32) (x1 : FVec Ideal S1x64 .f32) (j : S5000x64.Idx) :
    k3_pay1 (F := Ideal) x0 x1 j
      = logSoftmaxRow 64 (fun k => x0 (rowAt 64 j k) + x1 (ix2 (0 : Fin 1) k)) (⟨(j 1).val, idx2_lt1 j⟩ : Fin 64) := by
  obtain ⟨r, cc, rfl⟩ : ∃ (r : Fin 5000) (cc : Fin 64), j = ix2 r cc := ⟨j 0, j 1, eq_ix2 j⟩
  rw [pay_split]
  show shifted (biased x0 x1) (ix2 r cc) - logSumB (shifted (biased x0 x1)) (ix2 r cc) = _
  rw [logSumB_apply, shifted_apply]
  simp only [shifted_apply, biased_apply]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks of the input and of the output move together, block t at point t;
    the bias row's one block stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem index_onto : ∀ q : Fin 20, ∃ t : Fin cfg3.N, win3_2.index t (0 : Fin 2) = q.val ∧ win3_2.index t (1 : Fin 2) = 0 :=
  (by decide +kernel : ∀ q : Fin 20, ∃ t : Fin grid3.N, win3_2.index t (0 : Fin 2) = q.val ∧ win3_2.index t (1 : Fin 2) = 0)

/-- What point `t` writes back is block `t` of "bias, then log-softmax" of the two arrays as the region finds them. -/
theorem flushed_eq (c : Dev nD) (t : Fin cfg3.N) :
    (dat3 V c).flushed 2 t
      = ((cfg3.win 2).blk t).view.read (Elt Ideal) (biasLogSoftmax2 100000 64 (V c main_v85) (V c main_v86)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := index_facts t
  funext j
  show k3_pay1 (iblk3 V c 0 t) (iblk3 V c 1 t) j
    = biasLogSoftmax2 100000 64 (V c main_v85) (V c main_v86) (((cfg3.win 2).blk t).view.emb j)
  refine (pay_apply (iblk3 V c 0 t) (iblk3 V c 1 t) j).trans ?_
  unfold biasLogSoftmax2
  have hcol : (⟨(j 1).val, idx2_lt1 j⟩ : Fin 64)
      = ⟨((((cfg3.win 2).blk t).view.emb j) 1).val, idx2_lt1 (((cfg3.win 2).blk t).view.emb j)⟩ := by
    apply Fin.ext
    show (j 1).val = win3_2.index t (1 : Fin 2) * 64 + 1 * (j 1).val
    omega
  refine congrArg₂ (logSoftmaxRow 64) (funext fun k => ?_) hcol
  have h0 : ((cfg3.win 0).blk t).view.emb (rowAt 64 j k) = rowAt 64 (((cfg3.win 2).blk t).view.emb j) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  have h1 : ((cfg3.win 1).blk t).view.emb (ix2 (0 : Fin 1) k) = ix2 (0 : Fin 1) k := by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have hx : iblk3 V c 0 t (rowAt 64 j k) = V c main_v85 (rowAt 64 (((cfg3.win 2).blk t).view.emb j) k) := by
    show V c main_v85 (((cfg3.win 0).blk t).view.emb (rowAt 64 j k)) = _
    rw [h0]
  have hb : iblk3 V c 1 t (ix2 (0 : Fin 1) k) = V c main_v86 (ix2 (0 : Fin 1) k) := by
    show V c main_v86 (((cfg3.win 1).blk t).view.emb (ix2 (0 : Fin 1) k)) = _
    rw [h1]
  rw [hx, hb]

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v87).slice (win3_2.rect t)).set ↔ _
  rw [View.set_slice_whole, Rect.mem_set_unit]
  exact Iff.rfl

/-- The blocks tile the output array: row r is in block r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, q0, q1⟩ := index_onto ⟨(i 0).val / 5000, by omega⟩
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [q0]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; omega

/-- The output array after the region: "bias, then log-softmax of every row" of the two input arrays as the region found them. -/
theorem final (c : Dev nD) :
    (dat3 V c).arrAt 2 cfg3.N = biasLogSoftmax2 100000 64 (V c main_v85) (V c main_v86) :=
  (dat3 V c).arrAt_eq_of_cover 2 _ (fun t _ => flushed_eq V c t) cover

end Cert.KernelIdeal.Region3

end
-- ==== Proof.Agg.lean ====
/-
  The graph aggregation both programs run on the host, written once.

  With `s`, `d` the edges' source and destination nodes followed by one self-loop per node (`withLoops`), the in-degree of a
  node is the number of entries of `d` equal to it (a scatter-add of ones into zeros); `degInvSqrt` is its inverse square
  root, zero where the degree is not positive; an edge's weight is the product of that quantity at its two endpoints
  (`edgeNorm`; an index is first normalised the way jnp does it, a negative one counted from the end: `wrapIndex`); and the
  aggregate of a feature array `h` gathers row `s[e]` of `h` for every edge e, scales it by the edge's weight and scatter-adds
  it into row `d[e]` of zeros (`aggregate128`, `aggregate64`: the two feature widths). Both programs compute exactly these
  compositions of the same host operations, so nothing here is ever opened: the two sides only have to agree on what goes in.
-/
import proofs.«165954_j42657615184421_1_alg».proof.Proof.Gen.ReferenceIdeal

noncomputable section

namespace Cert.Agg

open Cert.ReferenceIdeal Cert.ReferenceIdeal.Gen Idealize.ShloMosaic

variable {F : FTy → Type} [FloatOps F]

/-- A two-operand `concatenate` depends on its operands' contents only through the contents. -/
theorem concatenate_pair_congr {α : Type} (t : Shape) (a : Fin t.rank) (s₁ s₂ : Shape) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- The edges' endpoints followed by one self-loop per node. -/
def withLoops (e : (⟨S1600000, .i32⟩ : BufTy).Contents (Elt F)) : (⟨S1700000, .i32⟩ : BufTy).Contents (Elt F) :=
  concatenate S1700000 0 [⟨S1600000, e⟩, ⟨S100000, iotaInDim S100000 32 0⟩] concatenates_S1600000_S100000_S1700000_d0

/-- The in-degree of every node: ones scatter-added into zeros at the destinations. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the in-degree, zero where the degree is not positive. -/
def degInvSqrt (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32)))
    (Host.rsqrt (degree d))
    (broadcastInDim S100000 ![] bcast_S_S100000 (id (constant S_ .f32 0x00000000#32)))

/-- jnp's index normalisation: a negative index counts from the end. -/
def wrapIndex (x : (⟨S1700000, .i32⟩ : BufTy).Contents (Elt F)) : (⟨S1700000, .i32⟩ : BufTy).Contents (Elt F) :=
  select (cmpi .slt x (broadcastInDim S1700000 ![] bcast_S_S1700000 (constantI S_ 32 0#32)))
    (addi x (broadcastInDim S1700000 ![] bcast_S_S1700000 (constantI S_ 32 100000#32))) x

/-- An edge's weight: the product of `degInvSqrt` at its source and at its destination. -/
def edgeNorm (s d : (⟨S1700000, .i32⟩ : BufTy).Contents (Elt F)) : (⟨S1700000, .f32⟩ : BufTy).Contents (Elt F) :=
  mulf
    (Host.gather gather_S100000_S1700000x1_S1700000_n_0_n_n_0_1_1 (degInvSqrt d)
      (broadcastInDim S1700000x1 ![0] bcast_S1700000_S1700000x1_0 (wrapIndex s)))
    (Host.gather gather_S100000_S1700000x1_S1700000_n_0_n_n_0_1_1 (degInvSqrt d)
      (broadcastInDim S1700000x1 ![0] bcast_S1700000_S1700000x1_0 (wrapIndex d)))

/-- The aggregate of 128-wide features: rows gathered by source, scaled by the edge's weight, scatter-added by destination. -/
def aggregate128 (h : (⟨S100000x128, .f32⟩ : BufTy).Contents (Elt F)) (s d : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0 (wrapIndex s)))
      (broadcastInDim S1700000x128 ![0, 1] bcast_S1700000x1_S1700000x128_0_1
        (broadcastInDim S1700000x1 ![0] bcast_S1700000_S1700000x1_0 (edgeNorm s d))))

/-- The aggregate of 64-wide features. -/
def aggregate64 (h : (⟨S100000x64, .f32⟩ : BufTy).Contents (Elt F)) (s d : (⟨S1700000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0 (wrapIndex s)))
      (broadcastInDim S1700000x64 ![0, 1] bcast_S1700000x1_S1700000x64_0_1
        (broadcastInDim S1700000x1 ![0] bcast_S1700000_S1700000x1_0 (edgeNorm s d))))

/-- One row of an edge list: the slice, recast as a vector. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

end Cert.Agg

end
-- ==== Proof.KHost.lean ====
/-
  The host stretches of the kernel's @main, read as functions of what they find.

  Before region 0 the two rows of the edge list are cut out and recast as vectors. Between regions 0 and 1 the graph
  aggregation of region 0's output is computed (the bias is recast as a one-row matrix on the way); between regions 2 and 3,
  the aggregation of region 2's output. Each stretch is a literal list of host operations, so what one buffer holds after it
  is the operations' composition applied to the buffers the stretch reads — the shared aggregation functions of the edges
  with self-loops — and every buffer the stretch does not write keeps its contents.
-/
import proofs.«165954_j42657615184421_1_alg».proof.Proof.Gen.KernelIdeal.Launch
import proofs.«165954_j42657615184421_1_alg».proof.Proof.Agg
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

attribute [local congr] Cert.Agg.concatenate_pair_congr

variable {F : FTy → Type} [FloatOps F] (V : Valuation τ sig (Elt F))

/-! ## Before region 0 -/

theorem stretch0_v1 : after hostOps0 V (Proc.devRef .tc main_v1) = Cert.Agg.edgeRow0 (V (Proc.devRef .tc main_arg1)) := by
  after_results_simp <;> rfl
theorem stretch0_v3 : after hostOps0 V (Proc.devRef .tc main_v3) = Cert.Agg.edgeRow1 (V (Proc.devRef .tc main_arg1)) := by
  after_results_simp <;> rfl
theorem stretch0_arg0 : after hostOps0 V (Proc.devRef .tc main_arg0) = V (Proc.devRef .tc main_arg0) := by after_results_simp
theorem stretch0_arg2 : after hostOps0 V (Proc.devRef .tc main_arg2) = V (Proc.devRef .tc main_arg2) := by after_results_simp
theorem stretch0_arg3 : after hostOps0 V (Proc.devRef .tc main_arg3) = V (Proc.devRef .tc main_arg3) := by after_results_simp
theorem stretch0_arg4 : after hostOps0 V (Proc.devRef .tc main_arg4) = V (Proc.devRef .tc main_arg4) := by after_results_simp
theorem stretch0_arg5 : after hostOps0 V (Proc.devRef .tc main_arg5) = V (Proc.devRef .tc main_arg5) := by after_results_simp

/-! ## Between regions 0 and 1 -/

set_option maxHeartbeats 4000000 in
set_option maxRecDepth 8192 in
/-- The aggregate of region 0's output, over the edges with self-loops. -/
theorem stretch1_v43 : after hostOps1_2 (after hostOps1_1 (after hostOps1 V)) (Proc.devRef .tc main_v43)
    = Cert.Agg.aggregate128 (V (Proc.devRef .tc main_v4)) (Cert.Agg.withLoops (V (Proc.devRef .tc main_v1)))
        (Cert.Agg.withLoops (V (Proc.devRef .tc main_v3))) := by
  after_results_simp <;> rfl

/-- The bias recast as a one-row matrix. -/
theorem stretch1_v44 : after hostOps1_2 (after hostOps1_1 (after hostOps1 V)) (Proc.devRef .tc main_v44)
    = shapeCast S1x128 (V (Proc.devRef .tc main_arg3)) shapeCasts_S128_S1x128 := by
  after_results_simp <;> rfl
theorem stretch1_v1 : after hostOps1_2 (after hostOps1_1 (after hostOps1 V)) (Proc.devRef .tc main_v1) = V (Proc.devRef .tc main_v1) := by
  after_results_simp
theorem stretch1_v3 : after hostOps1_2 (after hostOps1_1 (after hostOps1 V)) (Proc.devRef .tc main_v3) = V (Proc.devRef .tc main_v3) := by
  after_results_simp
theorem stretch1_arg4 : after hostOps1_2 (after hostOps1_1 (after hostOps1 V)) (Proc.devRef .tc main_arg4) = V (Proc.devRef .tc main_arg4) := by
  after_results_simp
theorem stretch1_arg5 : after hostOps1_2 (after hostOps1_1 (after hostOps1 V)) (Proc.devRef .tc main_arg5) = V (Proc.devRef .tc main_arg5) := by
  after_results_simp

/-! ## Between regions 2 and 3 -/

set_option maxHeartbeats 4000000 in
set_option maxRecDepth 8192 in
/-- The aggregate of region 2's output, over the edges with self-loops. -/
theorem stretch3_v85 : after hostOps3_2 (after hostOps3_1 (after hostOps3 V)) (Proc.devRef .tc main_v85)
    = Cert.Agg.aggregate64 (V (Proc.devRef .tc main_v46)) (Cert.Agg.withLoops (V (Proc.devRef .tc main_v1)))
        (Cert.Agg.withLoops (V (Proc.devRef .tc main_v3))) := by
  after_results_simp <;> rfl
/-- The bias recast as a one-row matrix. -/
theorem stretch3_v86 : after hostOps3_2 (after hostOps3_1 (after hostOps3 V)) (Proc.devRef .tc main_v86)
    = shapeCast S1x64 (V (Proc.devRef .tc main_arg5)) shapeCasts_S64_S1x64 := by
  after_results_simp <;> rfl

end Cert.KernelIdeal.Host

end
-- ==== Proof.Model.lean ====
/-
  The whole function: a two-layer graph convolution with a log-softmax head, as ONE function of the six arguments.

      gcn x e W1 b1 W2 b2 = logSoftmax (A (relu (A (x · W1) + b1) · W2) + b2)

  with `A` the degree-normalised aggregation over the edges `e` with self-loops (Agg.lean) and the dense pieces of Spec.lean.
  Both programs are shown to end with this array in their result buffer.
-/
import proofs.«165954_j42657615184421_1_alg».proof.Proof.Spec
import proofs.«165954_j42657615184421_1_alg».proof.Proof.Agg

noncomputable section

namespace Cert.Model

open Cert.Spec Idealize.ShloMosaic
open Cert.ReferenceIdeal (S2x1600000 S1700000)

/-- The sources of the edges with self-loops. -/
def srcs (e : (⟨S2x1600000, .i32⟩ : BufTy).Contents (Elt Ideal)) : (⟨S1700000, .i32⟩ : BufTy).Contents (Elt Ideal) :=
  Cert.Agg.withLoops (F := Ideal) (Cert.Agg.edgeRow0 (F := Ideal) e)
/-- The destinations of the edges with self-loops. -/
def dsts (e : (⟨S2x1600000, .i32⟩ : BufTy).Contents (Elt Ideal)) : (⟨S1700000, .i32⟩ : BufTy).Contents (Elt Ideal) :=
  Cert.Agg.withLoops (F := Ideal) (Cert.Agg.edgeRow1 (F := Ideal) e)

/-- The first layer: relu (A (x · W1) + b1). -/
def hidden (x : (⟨2, ![100000, 128]⟩ : Shape).Idx → EReal) (e : (⟨S2x1600000, .i32⟩ : BufTy).Contents (Elt Ideal))
    (w1 : (⟨2, ![128, 128]⟩ : Shape).Idx → EReal) (b1 : (⟨1, ![128]⟩ : Shape).Idx → EReal) : (⟨2, ![100000, 128]⟩ : Shape).Idx → EReal :=
  biasRelu 100000 128 (Cert.Agg.aggregate128 (F := Ideal) (matMul 100000 128 128 x w1) (srcs e) (dsts e)) b1

/-- The whole network: logSoftmax (A (hidden · W2) + b2). -/
def gcn (x : (⟨2, ![100000, 128]⟩ : Shape).Idx → EReal) (e : (⟨S2x1600000, .i32⟩ : BufTy).Contents (Elt Ideal))
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal) : (⟨2, ![100000, 64]⟩ : Shape).Idx → EReal :=
  biasLogSoftmax 100000 64 (Cert.Agg.aggregate64 (F := Ideal) (matMul 100000 128 64 (hidden x e w1 b1) w2) (srcs e) (dsts e)) b2

end Cert.Model

end
-- ==== Proof.KChain.lean ====
/-
  The kernel's result buffer at the end of its run, as the network's function of the arguments.

  The buffer contents at the eleven segment boundaries of the kernel's @main are a fold `W0 … W11` from the launch memory
  (the generated frame). This module walks the fold: at each boundary, what the few buffers that matter hold —

    after the first stretch    the two rows of the edge list; the arguments untouched
    after region 0             x · W1                                      (the blocks tile the array)
    after the second stretch   A (x · W1), the bias b1 as a one-row matrix
    after region 1             relu (A (x · W1) + b1)
    after region 2             that, times W2
    after the third stretch    A of it, the bias b2 as a one-row matrix
    after region 3             the log-softmax of every row of A (…) + b2

  — each step one line: a region's array by its value lemma, a stretch's result by the stretch's composition, and every
  other buffer carried along unchanged because the segment does not write it.
-/
import proofs.«165954_j42657615184421_1_alg».proof.Proof.Gen.KernelIdeal.Frame
import proofs.«165954_j42657615184421_1_alg».proof.Proof.KRegion0
import proofs.«165954_j42657615184421_1_alg».proof.Proof.KRegion1
import proofs.«165954_j42657615184421_1_alg».proof.Proof.KRegion2
import proofs.«165954_j42657615184421_1_alg».proof.Proof.KRegion3
import proofs.«165954_j42657615184421_1_alg».proof.Proof.KHost
import proofs.«165954_j42657615184421_1_alg».proof.Proof.Model

noncomputable section

namespace Cert.KernelIdeal.Chain

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem W1_v1 : W1 m ρ c (Proc.devRef .tc main_v1) = Cert.Agg.edgeRow0 (F := Ideal) (m ((c : Thread nD τ).loc main_arg1)) := Host.stretch0_v1 (W0 m ρ c)
theorem W1_v3 : W1 m ρ c (Proc.devRef .tc main_v3) = Cert.Agg.edgeRow1 (F := Ideal) (m ((c : Thread nD τ).loc main_arg1)) := Host.stretch0_v3 (W0 m ρ c)
theorem W1_arg0 : W1 m ρ c (Proc.devRef .tc main_arg0) = (m ((c : Thread nD τ).loc main_arg0)) := Host.stretch0_arg0 (W0 m ρ c)
theorem W1_arg2 : W1 m ρ c (Proc.devRef .tc main_arg2) = (m ((c : Thread nD τ).loc main_arg2)) := Host.stretch0_arg2 (W0 m ρ c)
theorem W1_arg3 : W1 m ρ c (Proc.devRef .tc main_arg3) = (m ((c : Thread nD τ).loc main_arg3)) := Host.stretch0_arg3 (W0 m ρ c)
theorem W1_arg4 : W1 m ρ c (Proc.devRef .tc main_arg4) = (m ((c : Thread nD τ).loc main_arg4)) := Host.stretch0_arg4 (W0 m ρ c)
theorem W1_arg5 : W1 m ρ c (Proc.devRef .tc main_arg5) = (m ((c : Thread nD τ).loc main_arg5)) := Host.stretch0_arg5 (W0 m ρ c)

/-! ## After region 0 -/

theorem W2_v4 : W2 m ρ c (Proc.devRef .tc main_v4) = matMul 100000 128 128 (m ((c : Thread nD τ).loc main_arg0)) (m ((c : Thread nD τ).loc main_arg2)) :=
  (W2_arr m ρ c 2).trans ((Region0.final (V1 m ρ) c).trans (congrArg₂ (matMul 100000 128 128) (W1_arg0 m ρ c) (W1_arg2 m ρ c)))
theorem W2_v1 : W2 m ρ c (Proc.devRef .tc main_v1) = Cert.Agg.edgeRow0 (F := Ideal) (m ((c : Thread nD τ).loc main_arg1)) :=
  (W2_of_ne m ρ c main_v1 (by decide)).trans (W1_v1 m ρ c)
theorem W2_v3 : W2 m ρ c (Proc.devRef .tc main_v3) = Cert.Agg.edgeRow1 (F := Ideal) (m ((c : Thread nD τ).loc main_arg1)) :=
  (W2_of_ne m ρ c main_v3 (by decide)).trans (W1_v3 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

/-! ## After the second stretch -/

theorem W5_v43 : W5 m ρ c (Proc.devRef .tc main_v43)
    = Cert.Agg.aggregate128 (F := Ideal) (matMul 100000 128 128 (m ((c : Thread nD τ).loc main_arg0)) (m ((c : Thread nD τ).loc main_arg2))) (Cert.Model.srcs (m ((c : Thread nD τ).loc main_arg1))) (Cert.Model.dsts (m ((c : Thread nD τ).loc main_arg1))) :=
  (Host.stretch1_v43 (W2 m ρ c)).trans (by rw [W2_v4 m ρ c, W2_v1 m ρ c, W2_v3 m ρ c]; rfl)
theorem W5_v44 : W5 m ρ c (Proc.devRef .tc main_v44) = shapeCast S1x128 (m ((c : Thread nD τ).loc main_arg3)) shapeCasts_S128_S1x128 :=
  (Host.stretch1_v44 (W2 m ρ c)).trans (by rw [W2_arg3 m ρ c])
theorem W5_v1 : W5 m ρ c (Proc.devRef .tc main_v1) = Cert.Agg.edgeRow0 (F := Ideal) (m ((c : Thread nD τ).loc main_arg1)) := (Host.stretch1_v1 (W2 m ρ c)).trans (W2_v1 m ρ c)
theorem W5_v3 : W5 m ρ c (Proc.devRef .tc main_v3) = Cert.Agg.edgeRow1 (F := Ideal) (m ((c : Thread nD τ).loc main_arg1)) := (Host.stretch1_v3 (W2 m ρ c)).trans (W2_v3 m ρ c)
theorem W5_arg4 : W5 m ρ c (Proc.devRef .tc main_arg4) = (m ((c : Thread nD τ).loc main_arg4)) := (Host.stretch1_arg4 (W2 m ρ c)).trans (W2_arg4 m ρ c)
theorem W5_arg5 : W5 m ρ c (Proc.devRef .tc main_arg5) = (m ((c : Thread nD τ).loc main_arg5)) := (Host.stretch1_arg5 (W2 m ρ c)).trans (W2_arg5 m ρ c)

/-! ## After region 1, and after region 2 -/

theorem W6_v45 : W6 m ρ c (Proc.devRef .tc main_v45) = Cert.Model.hidden (m ((c : Thread nD τ).loc main_arg0)) (m ((c : Thread nD τ).loc main_arg1)) (m ((c : Thread nD τ).loc main_arg2)) (m ((c : Thread nD τ).loc main_arg3)) :=
  (W6_arr m ρ c 2).trans ((Region1.final (V5 m ρ) c).trans
    ((congrArg₂ (biasRelu2 100000 128) (W5_v43 m ρ c) (W5_v44 m ρ c)).trans (biasRelu2_rowCast 100000 128 _ (m ((c : Thread nD τ).loc main_arg3)) shapeCasts_S128_S1x128)))
theorem W6_v1 : W6 m ρ c (Proc.devRef .tc main_v1) = Cert.Agg.edgeRow0 (F := Ideal) (m ((c : Thread nD τ).loc main_arg1)) := (W6_of_ne m ρ c main_v1 (by decide)).trans (W5_v1 m ρ c)
theorem W6_v3 : W6 m ρ c (Proc.devRef .tc main_v3) = Cert.Agg.edgeRow1 (F := Ideal) (m ((c : Thread nD τ).loc main_arg1)) := (W6_of_ne m ρ c main_v3 (by decide)).trans (W5_v3 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)

theorem W7_v46 : W7 m ρ c (Proc.devRef .tc main_v46) = matMul 100000 128 64 (Cert.Model.hidden (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Region2.final (V6 m ρ) c).trans (congrArg₂ (matMul 100000 128 64) (W6_v45 m ρ c) (W6_arg4 m ρ c)))
theorem W7_v1 : W7 m ρ c (Proc.devRef .tc main_v1) = Cert.Agg.edgeRow0 (F := Ideal) (m ((c : Thread nD τ).loc main_arg1)) := (W7_of_ne m ρ c main_v1 (by decide)).trans (W6_v1 m ρ c)
theorem W7_v3 : W7 m ρ c (Proc.devRef .tc main_v3) = Cert.Agg.edgeRow1 (F := Ideal) (m ((c : Thread nD τ).loc main_arg1)) := (W7_of_ne m ρ c main_v3 (by decide)).trans (W6_v3 m ρ c)
theorem W7_arg5 : W7 m ρ c (Proc.devRef .tc main_arg5) = (m ((c : Thread nD τ).loc main_arg5)) := (W7_of_ne m ρ c main_arg5 (by decide)).trans (W6_arg5 m ρ c)

/-! ## After the third stretch, and after region 3 -/

theorem W10_v85 : W10 m ρ c (Proc.devRef .tc main_v85)
    = Cert.Agg.aggregate64 (F := Ideal) (matMul 100000 128 64 (Cert.Model.hidden (m ((c : Thread nD τ).loc main_arg0)) (m ((c : Thread nD τ).loc main_arg1)) (m ((c : Thread nD τ).loc main_arg2)) (m ((c : Thread nD τ).loc main_arg3))) (m ((c : Thread nD τ).loc main_arg4))) (Cert.Model.srcs (m ((c : Thread nD τ).loc main_arg1))) (Cert.Model.dsts (m ((c : Thread nD τ).loc main_arg1))) :=
  (Host.stretch3_v85 (W7 m ρ c)).trans (by rw [W7_v46 m ρ c, W7_v1 m ρ c, W7_v3 m ρ c]; rfl)
theorem W10_v86 : W10 m ρ c (Proc.devRef .tc main_v86) = shapeCast S1x64 (m ((c : Thread nD τ).loc main_arg5)) shapeCasts_S64_S1x64 :=
  (Host.stretch3_v86 (W7 m ρ c)).trans (by rw [W7_arg5 m ρ c])

/-- The result buffer at the last boundary holds the network's function of the arguments. -/
theorem W11_v87 : W11 m ρ c (Proc.devRef .tc main_v87) = Cert.Model.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_arr m ρ c 2).trans ((Region3.final (V10 m ρ) c).trans
    ((congrArg₂ (biasLogSoftmax2 100000 64) (W10_v85 m ρ c) (W10_v86 m ρ c)).trans (biasLogSoftmax2_rowCast 100000 64 _ (m ((c : Thread nD τ).loc main_arg5)) shapeCasts_S64_S1x64)))

end Cert.KernelIdeal.Chain

end
-- ==== Proof.RPieces.lean ====
/-
  The three dense pieces of the network as the reference's host operations compute them: "add the bias, clamp at zero", and
  "add the bias, subtract each row's maximum, subtract the logarithm of the row's sum of exponentials". Only definitions: the
  compositions of host operations, named, so that the reference's line of operations can be stated over them (RStretch.lean)
  and each can be read index by index (RDense.lean).
-/
import proofs.«165954_j42657615184421_1_alg».proof.Proof.Gen.ReferenceIdeal

noncomputable section

namespace Cert.ReferenceIdeal.RefValue

open Cert.ReferenceIdeal Cert.ReferenceIdeal.Gen Idealize.ShloMosaic

/-! ## The dense pieces as the host computes them -/

section HostPieces

variable {F : FTy → Type} [FloatOps F]

/-- Add the bias to every row (spread by two `broadcast_in_dim`s), clamp at zero. -/
def refBiasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- Add the bias to every row. -/
def refBiased (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1 (broadcastInDim S1x64 ![1] bcast_S64_S1x64_1 b))

/-- Each row's maximum (jnp's log-softmax takes it once more against -∞). -/
def refRowMax (z : (⟨S100000x64, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x64_S100000_d1 h_S_)

/-- Each row with its maximum subtracted. -/
def refShifted (z : (⟨S100000x64, .f32⟩ : BufTy).Contents (Elt F)) : (⟨S100000x64, .f32⟩ : BufTy).Contents (Elt F) :=
  subf z (broadcastInDim S100000x64 ![0, 1] bcast_S100000x1_S100000x64_0_1
    (broadcastInDim S100000x1 ![0] bcast_S100000_S100000x1_0 (refRowMax z)))

/-- The logarithm of each row's sum of exponentials, spread along the row. -/
def refLogSum (y : (⟨S100000x64, .f32⟩ : BufTy).Contents (Elt F)) : (⟨S100000x64, .f32⟩ : BufTy).Contents (Elt F) :=
  broadcastInDim S100000x64 ![0, 1] bcast_S100000x1_S100000x64_0_1
    (Host.log (broadcastInDim S100000x1 ![0] bcast_S100000_S100000x1_0
      (Host.reduceAdd (Host.exp y) (constant S_ .f32 0x00000000#32) reducesTo_S100000x64_S100000_d1 h_S_)))

/-- Add the bias, then the log-softmax of every row. -/
def refLogSoftmax (a : (⟨S100000x64, .f32⟩ : BufTy).Contents (Elt F)) (b : (⟨S64, .f32⟩ : BufTy).Contents (Elt F)) :
    (⟨S100000x64, .f32⟩ : BufTy).Contents (Elt F) :=
  subf (refShifted (refBiased a b)) (refLogSum (refShifted (refBiased a b)))

end HostPieces

end Cert.ReferenceIdeal.RefValue

end
-- ==== Proof.RStretch.lean ====
/-
  The reference's line of 134 host operations, stretch by stretch.

  The line falls into five stretches — cut the two rows out of the edge list and multiply x by W1; aggregate; add b1, clamp at
  zero and multiply by W2; aggregate; add b2 and take the log-softmax of every row — and the fold over the whole line is the
  folds over the stretches, one after the other. Each stretch's result is the composition of its operations applied to what it
  reads (the aggregation is the shared function of Agg.lean; the dense pieces those of RPieces.lean), and every buffer a stretch
  does not write keeps its contents.
-/
import proofs.«165954_j42657615184421_1_alg».proof.Proof.RefRunP
import proofs.«165954_j42657615184421_1_alg».proof.Proof.RPieces
import proofs.«165954_j42657615184421_1_alg».proof.Proof.Agg
import Idealize.ShloMosaic.Lib.StableHlo.Run

set_option Elab.async false

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

attribute [local congr] Cert.Agg.concatenate_pair_congr

section Stretches

variable {F : FTy → Type} [FloatOps F]

/-- The five stretches of the line. -/
abbrev opsA : List (HloOp τ sig (Elt F)) := ops.take 5
abbrev opsB : List (HloOp τ sig (Elt F)) := (ops.drop 5).take 52
abbrev opsC : List (HloOp τ sig (Elt F)) := (ops.drop 57).take 7
abbrev opsD : List (HloOp τ sig (Elt F)) := (ops.drop 64).take 52
abbrev opsE : List (HloOp τ sig (Elt F)) := ops.drop 116

variable (V : Valuation τ sig (Elt F))

/-- The fold over the whole line is the folds over the five stretches, one after the other. -/
theorem after_split : after ops V = after opsE (after opsD (after opsC (after opsB (after opsA V)))) := by
  simp only [opsA, opsB, opsC, opsD, opsE, ops, List.take_succ_cons, List.take_zero, List.drop_succ_cons, List.drop_zero,
    after_cons, after_nil]

/-- Contents carried to a typed reference's buffer and back are the contents. -/
theorem ofBuf_toBuf {Val : EltTy → Type} {T : BufTy} (x : TRef sig T) (v : T.Contents Val) : x.ofBuf (x.toBuf v) = v := by
  obtain ⟨r, h, h2, h3⟩ := x
  subst h
  rfl
/-- At the result buffer and at the biased logits' buffer the transport is the identity. -/
theorem toBuf_v91 (h1 h2 h3) (x : (⟨S100000x64, .f32⟩ : BufTy).Contents (Elt F)) :
    (TRef.of (T := ⟨S100000x64, .f32⟩) main_v91 h1 h2 h3).toBuf x = x := rfl
theorem ofBuf_v90 (h1 h2 h3) (x : (⟨S100000x64, .f32⟩ : BufTy).Contents (Elt F)) :
    (TRef.of (T := ⟨S100000x64, .f32⟩) main_v90 h1 h2 h3).ofBuf x = x := rfl

/-! ### The edge rows and x · W1 -/

theorem opsA_v1 : after opsA V (Proc.devRef .tc main_v1) = Cert.Agg.edgeRow0 (V (Proc.devRef .tc main_arg1)) := by
  simp only [opsA, ops, List.take_succ_cons, List.take_zero]; after_results_simp <;> rfl
theorem opsA_v3 : after opsA V (Proc.devRef .tc main_v3) = Cert.Agg.edgeRow1 (V (Proc.devRef .tc main_arg1)) := by
  simp only [opsA, ops, List.take_succ_cons, List.take_zero]; after_results_simp <;> rfl
theorem opsA_v4 : after opsA V (Proc.devRef .tc main_v4)
    = Host.dotGeneral dot_S100000x128_S128x128_S100000x128_1_0_0_1_n_n none (V (Proc.devRef .tc main_arg0)) (V (Proc.devRef .tc main_arg2)) := by
  simp only [opsA, ops, List.take_succ_cons, List.take_zero]; after_results_simp <;> rfl
theorem opsA_arg3 : after opsA V (Proc.devRef .tc main_arg3) = V (Proc.devRef .tc main_arg3) := by
  simp only [opsA, ops, List.take_succ_cons, List.take_zero, List.drop_succ_cons, List.drop_zero]; after_results_simp
theorem opsA_arg4 : after opsA V (Proc.devRef .tc main_arg4) = V (Proc.devRef .tc main_arg4) := by
  simp only [opsA, ops, List.take_succ_cons, List.take_zero, List.drop_succ_cons, List.drop_zero]; after_results_simp
theorem opsA_arg5 : after opsA V (Proc.devRef .tc main_arg5) = V (Proc.devRef .tc main_arg5) := by
  simp only [opsA, ops, List.take_succ_cons, List.take_zero, List.drop_succ_cons, List.drop_zero]; after_results_simp

/-! ### The first aggregation -/

set_option maxHeartbeats 4000000 in
set_option maxRecDepth 8192 in
theorem opsB_v43 : after opsB V (Proc.devRef .tc main_v43)
    = Cert.Agg.aggregate128 (V (Proc.devRef .tc main_v4)) (Cert.Agg.withLoops (V (Proc.devRef .tc main_v1)))
        (Cert.Agg.withLoops (V (Proc.devRef .tc main_v3))) := by
  simp only [opsB, ops, List.take_succ_cons, List.take_zero, List.drop_succ_cons, List.drop_zero]; after_results_simp <;> rfl
theorem opsB_v1 : after opsB V (Proc.devRef .tc main_v1) = V (Proc.devRef .tc main_v1) := by
  simp only [opsB, ops, List.take_succ_cons, List.take_zero, List.drop_succ_cons, List.drop_zero]; after_results_simp
theorem opsB_v3 : after opsB V (Proc.devRef .tc main_v3) = V (Proc.devRef .tc main_v3) := by
  simp only [opsB, ops, List.take_succ_cons, List.take_zero, List.drop_succ_cons, List.drop_zero]; after_results_simp
theorem opsB_arg3 : after opsB V (Proc.devRef .tc main_arg3) = V (Proc.devRef .tc main_arg3) := by
  simp only [opsB, ops, List.take_succ_cons, List.take_zero, List.drop_succ_cons, List.drop_zero]; after_results_simp
theorem opsB_arg4 : after opsB V (Proc.devRef .tc main_arg4) = V (Proc.devRef .tc main_arg4) := by
  simp only [opsB, ops, List.take_succ_cons, List.take_zero, List.drop_succ_cons, List.drop_zero]; after_results_simp
theorem opsB_arg5 : after opsB V (Proc.devRef .tc main_arg5) = V (Proc.devRef .tc main_arg5) := by
  simp only [opsB, ops, List.take_succ_cons, List.take_zero, List.drop_succ_cons, List.drop_zero]; after_results_simp

/-! ### Bias, clamp, and the product with W2 -/

theorem opsC_v48 : after opsC V (Proc.devRef .tc main_v48)
    = Host.dotGeneral dot_S100000x128_S128x64_S100000x64_1_0_0_1_n_n none
        (refBiasRelu (V (Proc.devRef .tc main_v43)) (V (Proc.devRef .tc main_arg3))) (V (Proc.devRef .tc main_arg4)) := by
  simp only [opsC, ops, List.take_succ_cons, List.take_zero, List.drop_succ_cons, List.drop_zero]; after_results_simp <;> rfl
theorem opsC_v1 : after opsC V (Proc.devRef .tc main_v1) = V (Proc.devRef .tc main_v1) := by
  simp only [opsC, ops, List.take_succ_cons, List.take_zero, List.drop_succ_cons, List.drop_zero]; after_results_simp
theorem opsC_v3 : after opsC V (Proc.devRef .tc main_v3) = V (Proc.devRef .tc main_v3) := by
  simp only [opsC, ops, List.take_succ_cons, List.take_zero, List.drop_succ_cons, List.drop_zero]; after_results_simp
theorem opsC_arg5 : after opsC V (Proc.devRef .tc main_arg5) = V (Proc.devRef .tc main_arg5) := by
  simp only [opsC, ops, List.take_succ_cons, List.take_zero, List.drop_succ_cons, List.drop_zero]; after_results_simp

/-! ### The second aggregation -/

set_option maxHeartbeats 4000000 in
set_option maxRecDepth 8192 in
theorem opsD_v87 : after opsD V (Proc.devRef .tc main_v87)
    = Cert.Agg.aggregate64 (V (Proc.devRef .tc main_v48)) (Cert.Agg.withLoops (V (Proc.devRef .tc main_v1)))
        (Cert.Agg.withLoops (V (Proc.devRef .tc main_v3))) := by
  simp only [opsD, ops, List.take_succ_cons, List.take_zero, List.drop_succ_cons, List.drop_zero]; after_results_simp <;> rfl
theorem opsD_arg5 : after opsD V (Proc.devRef .tc main_arg5) = V (Proc.devRef .tc main_arg5) := by
  simp only [opsD, ops, List.take_succ_cons, List.take_zero, List.drop_succ_cons, List.drop_zero]; after_results_simp

/-! ### Bias and log-softmax -/

theorem opsE_v91 : after opsE V (Proc.devRef .tc main_v91)
    = refLogSoftmax (V (Proc.devRef .tc main_v87)) (V (Proc.devRef .tc main_arg5)) := by
  simp only [opsE, ops, List.drop_succ_cons, List.drop_zero]; after_results_simp
  simp only [ofBuf_toBuf, toBuf_v91, ofBuf_v90]
  rfl

/-- The whole line: the result buffer after it, as the composition of the stretches. -/
theorem result_fold : after ops V (Proc.devRef .tc main_v91)
    = refLogSoftmax
        (Cert.Agg.aggregate64
          (Host.dotGeneral dot_S100000x128_S128x64_S100000x64_1_0_0_1_n_n none
            (refBiasRelu
              (Cert.Agg.aggregate128
                (Host.dotGeneral dot_S100000x128_S128x128_S100000x128_1_0_0_1_n_n none (V (Proc.devRef .tc main_arg0)) (V (Proc.devRef .tc main_arg2)))
                (Cert.Agg.withLoops (Cert.Agg.edgeRow0 (V (Proc.devRef .tc main_arg1))))
                (Cert.Agg.withLoops (Cert.Agg.edgeRow1 (V (Proc.devRef .tc main_arg1)))))
              (V (Proc.devRef .tc main_arg3)))
            (V (Proc.devRef .tc main_arg4)))
          (Cert.Agg.withLoops (Cert.Agg.edgeRow0 (V (Proc.devRef .tc main_arg1))))
          (Cert.Agg.withLoops (Cert.Agg.edgeRow1 (V (Proc.devRef .tc main_arg1)))))
        (V (Proc.devRef .tc main_arg5)) := by
  rw [after_split]
  rw [opsE_v91, opsD_v87, opsD_arg5, opsC_v48, opsC_v1, opsC_v3, opsC_arg5, opsB_v43, opsB_v1, opsB_v3, opsB_arg3, opsB_arg4, opsB_arg5,
    opsA_v1, opsA_v3, opsA_v4, opsA_arg3, opsA_arg4, opsA_arg5]

end Stretches

end Cert.ReferenceIdeal.RefValue

end
-- ==== Proof.RDense.lean ====
/-
  The reference's dense pieces, index by index, at the extended reals.

  The host's `dot_general` is the sum over the contracted axis; two `broadcast_in_dim`s spread the bias over the rows; the
  host's maximum- and sum-reductions over a row are a fold of `max` (started from -∞, and the extra maximum with -∞ that jnp's
  log-softmax takes changes nothing) and the row's sum. So the three pieces are the specification's.
-/
import proofs.«165954_j42657615184421_1_alg».proof.Proof.RPieces
import proofs.«165954_j42657615184421_1_alg».proof.Proof.Spec
import proofs.«165954_j42657615184421_1_alg».proof.Proof.LibKeepdims
import Idealize.ShloMosaic.Lib.ValueIdx
import Idealize.ShloMosaic.PureOps.Ideal.Laws

noncomputable section

namespace Cert.ReferenceIdeal.RefValue

open Cert.ReferenceIdeal Cert.ReferenceIdeal.Gen Cert.Spec Cert.LibKeepdims
open Idealize.ShloMosaic Idealize.ShloMosaic.TcCoe Idealize.ShloMosaic.ValueIdx Idealize.SL.Sem Idealize.ShloMosaic.StableHlo

/-! ## The dense pieces, index by index, at the extended reals -/

theorem dot_S100000x128_S128x128_S100000x128_1_0_0_1_n_n_lhs_row (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot_S100000x128_S128x128_S100000x128_1_0_0_1_n_n_lhs_k (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem dot_S100000x128_S128x128_S100000x128_1_0_0_1_n_n_rhs_k (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem dot_S100000x128_S128x128_S100000x128_1_0_0_1_n_n_rhs_col (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product, entry by entry: the sum over the contracted axis. -/
theorem dot_S100000x128_S128x128_S100000x128_1_0_0_1_n_n_eq (x : FVec Ideal S100000x128 .f32) (w : FVec Ideal S128x128 .f32) :
    Host.dotGeneral dot_S100000x128_S128x128_S100000x128_1_0_0_1_n_n none x w = matMul 100000 128 128 x w := by
  funext i
  simp only [Host.dotGeneral]
  rw [Ideal.dotGeneral_apply, ← Equiv.sum_comp (contrEquiv1 dot_S100000x128_S128x128_S100000x128_1_0_0_1_n_n 128 rfl rfl).symm]
  unfold matMul
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = rowAt 128 i k := funext fun a => Fin.ext (by
    match a with
    | ⟨0, _⟩ => exact dot_S100000x128_S128x128_S100000x128_1_0_0_1_n_n_lhs_row _ _
    | ⟨1, _⟩ => exact (dot_S100000x128_S128x128_S100000x128_1_0_0_1_n_n_lhs_k _ _).trans hk)
  have er : dot_S100000x128_S128x128_S100000x128_1_0_0_1_n_n.rhsIdx i ((contrEquiv1 dot_S100000x128_S128x128_S100000x128_1_0_0_1_n_n 128 rfl rfl).symm k) = colAt 128 i k := funext fun a => Fin.ext (by
    match a with
    | ⟨0, _⟩ => exact (dot_S100000x128_S128x128_S100000x128_1_0_0_1_n_n_rhs_k _ _).trans hk
    | ⟨1, _⟩ => exact dot_S100000x128_S128x128_S100000x128_1_0_0_1_n_n_rhs_col _ _)
  rw [el, er]

theorem dot_S100000x128_S128x64_S100000x64_1_0_0_1_n_n_lhs_row (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dot_S100000x128_S128x64_S100000x64_1_0_0_1_n_n_lhs_k (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem dot_S100000x128_S128x64_S100000x64_1_0_0_1_n_n_rhs_k (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem dot_S100000x128_S128x64_S100000x64_1_0_0_1_n_n_rhs_col (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product, entry by entry: the sum over the contracted axis. -/
theorem dot_S100000x128_S128x64_S100000x64_1_0_0_1_n_n_eq (x : FVec Ideal S100000x128 .f32) (w : FVec Ideal S128x64 .f32) :
    Host.dotGeneral dot_S100000x128_S128x64_S100000x64_1_0_0_1_n_n none x w = matMul 100000 128 64 x w := by
  funext i
  simp only [Host.dotGeneral]
  rw [Ideal.dotGeneral_apply, ← Equiv.sum_comp (contrEquiv1 dot_S100000x128_S128x64_S100000x64_1_0_0_1_n_n 128 rfl rfl).symm]
  unfold matMul
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = rowAt 128 i k := funext fun a => Fin.ext (by
    match a with
    | ⟨0, _⟩ => exact dot_S100000x128_S128x64_S100000x64_1_0_0_1_n_n_lhs_row _ _
    | ⟨1, _⟩ => exact (dot_S100000x128_S128x64_S100000x64_1_0_0_1_n_n_lhs_k _ _).trans hk)
  have er : dot_S100000x128_S128x64_S100000x64_1_0_0_1_n_n.rhsIdx i ((contrEquiv1 dot_S100000x128_S128x64_S100000x64_1_0_0_1_n_n 128 rfl rfl).symm k) = colAt 128 i k := funext fun a => Fin.ext (by
    match a with
    | ⟨0, _⟩ => exact (dot_S100000x128_S128x64_S100000x64_1_0_0_1_n_n_rhs_k _ _).trans hk
    | ⟨1, _⟩ => exact dot_S100000x128_S128x64_S100000x64_1_0_0_1_n_n_rhs_col _ _)
  rw [el, er]

/-- "Bias, then clamp" as the host computes it is the specification's. -/
theorem refBiasRelu_eq (a : FVec Ideal S100000x128 .f32) (b : FVec Ideal S128 .f32) :
    refBiasRelu (F := Ideal) a b = biasRelu 100000 128 a b := by
  funext i
  obtain ⟨r, cc, rfl⟩ : ∃ (r : Fin 100000) (cc : Fin 128), i = ix2 r cc := ⟨i 0, i 1, eq_ix2 i⟩
  show max (a (ix2 r cc)
        + broadcastInDim S100000x128 ![0, 1] bcast_S1x128_S100000x128_0_1 (broadcastInDim S1x128 ![1] bcast_S128_S1x128_1 b) (ix2 r cc))
      (broadcastInDim S100000x128 ![] bcast_S_S100000x128 (constant (F := Ideal) S_ .f32 0x00000000#32) (ix2 r cc)) = _
  rw [broadcastInDim_1b_ab_apply ![0, 1] rfl rfl, broadcastInDim_b_1b_apply ![1] rfl, broadcastInDim_scalar_apply]
  rfl

theorem refBiased_apply (a : FVec Ideal S100000x64 .f32) (b : FVec Ideal S64 .f32) (r : Fin 100000) (k : Fin 64) :
    refBiased (F := Ideal) a b (ix2 r k) = a (ix2 r k) + b (ix1 k) := by
  show a (ix2 r k)
    + broadcastInDim S100000x64 ![0, 1] bcast_S1x64_S100000x64_0_1 (broadcastInDim S1x64 ![1] bcast_S64_S1x64_1 b) (ix2 r k) = _
  rw [broadcastInDim_1b_ab_apply ![0, 1] rfl rfl, broadcastInDim_b_1b_apply ![1] rfl]

/-- The row reduction's shape fact. -/
theorem reduces_rows : S100000x64.Reduces [1] S100000 := by decide

/-- The row reduction's inserted index: row r with column k put back is (r, k). -/
theorem lift_eq (h : S100000x64.Reduces [1] S100000) (r : Fin 100000) (k : Fin 64) : h.lift (ix1 r) k = ix2 r k := by
  funext a; apply Fin.ext
  match a with
  | ⟨0, _⟩ => rfl
  | ⟨1, _⟩ => rfl

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The host's maximum-reduction of a row, started from the pattern of -∞: the fold of `max` over the row. -/
theorem hostReduceMax_row (z : FVec Ideal S100000x64 .f32) (r : Fin 100000) :
    Host.reduce FloatOps.maximumf z (constant (F := Ideal) S_ .f32 0xFF800000#32) reducesTo_S100000x64_S100000_d1 h_S_ (ix1 r)
      = (Finset.univ : Finset (Fin 64)).fold max (Ideal.ofBits .f32 0xFF800000#32) (fun k => z (ix2 r k)) := by
  rw [Host.reduce_eq_fold_single FloatOps.maximumf z _ reducesTo_S100000x64_S100000_d1 reduces_rows h_S_ (ix1 r)]
  show (Finset.univ : Finset (Fin 64)).fold max (Ideal.ofBits .f32 0xFF800000#32) (z ∘ reduces_rows.lift (ix1 r)) = _
  refine congrArg (fun f => Finset.fold max (Ideal.ofBits .f32 0xFF800000#32) f (Finset.univ : Finset (Fin 64))) (funext fun k => ?_)
  exact congrArg z (lift_eq _ r k)

/-- The host's sum of a row, started from zero: the row's sum. -/
theorem hostReduceAdd_row (w : FVec Ideal S100000x64 .f32) (r : Fin 100000) :
    Host.reduceAdd w (constant (F := Ideal) S_ .f32 0x00000000#32) reducesTo_S100000x64_S100000_d1 h_S_ (ix1 r)
      = ∑ k : Fin 64, w (ix2 r k) := by
  simp only [Host.reduceAdd, Ideal.hostReduceAdd_def]
  rw [Ideal.hostReduceAdd_single reducesTo_S100000x64_S100000_d1 reduces_rows]
  show Ideal.ofBits .f32 0x00000000#32 + ∑ k : Fin 64, w (reduces_rows.lift (ix1 r) k) = _
  rw [Ideal.ofBits_zero_f32, zero_add]
  refine Finset.sum_congr rfl fun k _ => ?_
  exact congrArg w (lift_eq _ r k)

/-- The row maximum at r: the fold of `max` over the row, from the pattern of -∞ (the second maximum with -∞ is absorbed). -/
theorem refRowMax_apply (z : FVec Ideal S100000x64 .f32) (r : Fin 100000) :
    refRowMax (F := Ideal) z (ix1 r)
      = (Finset.univ : Finset (Fin 64)).fold max (Ideal.ofBits .f32 0xFF800000#32) (fun k => z (ix2 r k)) := by
  unfold refRowMax
  rw [maximumf_apply, broadcastInDim_scalar_apply, hostReduceMax_row]
  exact max_init_fold_max _ _ _

theorem refShifted_apply (z : FVec Ideal S100000x64 .f32) (r : Fin 100000) (k : Fin 64) :
    refShifted (F := Ideal) z (ix2 r k)
      = z (ix2 r k) - (Finset.univ : Finset (Fin 64)).fold max (Ideal.ofBits .f32 0xFF800000#32) (fun k => z (ix2 r k)) := by
  unfold refShifted
  rw [subf_apply, broadcastInDim_a1_ab_apply ![0, 1] rfl rfl, broadcastInDim_a_a1_apply ![0] rfl, refRowMax_apply]

/-- The log of the row's sum of exponentials at (r, c). -/
theorem refLogSum_apply (y : FVec Ideal S100000x64 .f32) (r : Fin 100000) (cc : Fin 64) :
    refLogSum (F := Ideal) y (ix2 r cc) = Ideal.log (∑ k : Fin 64, Ideal.exp (y (ix2 r k))) := by
  unfold refLogSum
  rw [broadcastInDim_a1_ab_apply ![0, 1] rfl rfl, hostLog_apply, broadcastInDim_a_a1_apply ![0] rfl, hostReduceAdd_row]
  refine congrArg Ideal.log (Finset.sum_congr rfl fun k _ => ?_)
  exact hostExp_apply y (ix2 r k)

/-- "Bias, then log-softmax of every row" as the host computes it is the specification's. -/
theorem refLogSoftmax_eq (a : FVec Ideal S100000x64 .f32) (b : FVec Ideal S64 .f32) :
    refLogSoftmax (F := Ideal) a b = biasLogSoftmax 100000 64 a b := by
  funext i
  obtain ⟨r, cc, rfl⟩ : ∃ (r : Fin 100000) (cc : Fin 64), i = ix2 r cc := ⟨i 0, i 1, eq_ix2 i⟩
  unfold refLogSoftmax
  rw [subf_apply, refLogSum_apply, refShifted_apply]
  simp only [refShifted_apply, refBiased_apply]
  rfl

end Cert.ReferenceIdeal.RefValue

end
-- ==== Proof.RResult.lean ====
/-
  The reference's result: the fold of its line of operations over the launch memory is the network's function of the arguments —
  the stretches' compositions (RStretch.lean) with each dense piece replaced by the specification's (RDense.lean).
-/
import proofs.«165954_j42657615184421_1_alg».proof.Proof.RStretch
import proofs.«165954_j42657615184421_1_alg».proof.Proof.RDense
import proofs.«165954_j42657615184421_1_alg».proof.Proof.Model

noncomputable section

namespace Cert.ReferenceIdeal.RefValue

open Cert.ReferenceIdeal Cert.ReferenceIdeal.Gen Cert.ReferenceIdeal.ValueP Cert.Spec
open Idealize.ShloMosaic Idealize.ShloMosaic.TcCoe Idealize.SL.Sem Idealize.ShloMosaic.StableHlo

/-- The reference's result buffer after its line of operations holds the network's function of the arguments. -/
theorem result_value (m : (ℓ : Loc nD τ sig) → Buf (Elt Ideal) ℓ) (c : Dev nD) :
    after ops (launchContents m c) (Proc.devRef .tc main_v91)
      = Cert.Model.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have hV : ∀ b : Ref sig .tc, launchContents m c (Proc.devRef .tc b) = m ((c.tc : Thread nD τ).loc b) := fun _ => rfl
  rw [result_fold, hV, hV, hV, hV, hV, hV]
  rw [refLogSoftmax_eq, dot_S100000x128_S128x64_S100000x64_1_0_0_1_n_n_eq, refBiasRelu_eq, dot_S100000x128_S128x128_S100000x128_1_0_0_1_n_n_eq]
  unfold Cert.Model.gcn Cert.Model.hidden Cert.Model.srcs Cert.Model.dsts
  rfl

end Cert.ReferenceIdeal.RefValue

end
-- ==== Proof.lean ====
/-
  The certificate: a Pallas two-layer graph convolution against its jnp reference, equal over the extended reals.

  The network is  logSoftmax (A (relu (A (x · W1) + b1) · W2) + b2),  A the degree-normalised aggregation over the edge list
  with self-loops. The kernel program computes the two matrix products, the bias + relu and the bias + log-softmax in four
  pipelined regions (blocks of 5000 rows; the products with operands rounded to bf16, the identity at the extended reals) and
  the aggregation on the host between them; the reference computes everything on the host. The two programs apply the same
  operations in the same order to the same data, so the algebraic claim needs no law of arithmetic and never uses that the
  inputs are finite: every block of a region's output is the matching block of one whole-array function (Spec.lean), the
  blocks tile the array, and the host stretches of the two programs are the same compositions (Agg.lean).

  * the frames of the two kernel programs are the generated several-region frame certificates; the reference's frame is its
    run with the result forgotten;
  * `preserves`: the idealization rewrote nothing, the claim is `True`;
  * `algebraic`: the kernel's run re-posted with its result buffer named (KRun.lean), the fold of buffer contents walked from
    the launch to the result (KChain.lean over KRegion0–3.lean and KHost.lean), the reference's fold evaluated stretch by
    stretch (RStretch.lean, RDense.lean, RResult.lean), both equal to `Model.gcn` of the arguments; the arguments agree by hypothesis.
-/
import proofs.«165954_j42657615184421_1_alg».proof.Defs
import proofs.«165954_j42657615184421_1_alg».proof.Proof.Gen.Kernel
import proofs.«165954_j42657615184421_1_alg».proof.Proof.Gen.Kernel.Frame
import proofs.«165954_j42657615184421_1_alg».proof.Proof.Gen.KernelIdeal
import proofs.«165954_j42657615184421_1_alg».proof.Proof.Gen.KernelIdeal.Frame
import proofs.«165954_j42657615184421_1_alg».proof.Proof.Gen.ReferenceIdeal
import proofs.«165954_j42657615184421_1_alg».proof.Proof.Gen.Pre_finite_inputs
import proofs.«165954_j42657615184421_1_alg».proof.Proof.KRun
import proofs.«165954_j42657615184421_1_alg».proof.Proof.KChain
import proofs.«165954_j42657615184421_1_alg».proof.Proof.RefRunP
import proofs.«165954_j42657615184421_1_alg».proof.Proof.RResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the network's function of the (agreeing) arguments in their result buffers. -/
theorem algebraic : Cert.algebraic_KernelIdeal_ReferenceIdeal := by
  intro m ρ m' ρ' _ hagree
  refine ⟨fun c => Cert.Model.gcn
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(Cert.KernelIdeal.Run.result_mem m ρ r h c).trans (Cert.KernelIdeal.Chain.W11_v87 m ρ c),
        Cert.KernelIdeal.Run.arg0_mem m ρ r h c, Cert.KernelIdeal.Run.arg1_mem m ρ r h c, Cert.KernelIdeal.Run.arg2_mem m ρ r h c,
        Cert.KernelIdeal.Run.arg3_mem m ρ r h c, Cert.KernelIdeal.Run.arg4_mem m ρ r h c, Cert.KernelIdeal.Run.arg5_mem m ρ r h c⟩)
      (Cert.KernelIdeal.Run.run_buffers m ρ)
  · refine (θ_run Cert.ReferenceIdeal.defs _ _).mono (fun r h c => ⟨?_, (h c).2⟩) (Cert.ReferenceIdeal.ValueP.run (F := Ideal) m' ρ')
    rw [(h c).1, Cert.ReferenceIdeal.RefValue.result_value m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
